-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x4096 : Shape := ⟨3, ![4, 8192, 4096]⟩
abbrev S8192x4096 : Shape := ⟨2, ![8192, 4096]⟩
abbrev S4096 : Shape := ⟨1, ![4096]⟩
abbrev S_ : Shape := ⟨0, ![]⟩

class Facts : Prop where
  bcast_S_S4x8192x4096 : S_.BroadcastsInDim S4x8192x4096 (![] : Fin 0 → Fin S4x8192x4096.rank)
  reducesTo_S4x8192x4096_S_d0_1_2 : S4x8192x4096.ReducesTo [0, 1, 2] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x8192x4096 .f32) (main_arg1 : FVec F S8192x4096 .f32) (main_arg2 : FVec F S4096 .f32) : IVec S_ 1 :=
  let main_v0 : FVec F S4x8192x4096 .f32 := Host.absf main_arg0
  let main_cst : FVec F S_ .f32 := constant S_ .f32 0x7F800000#32
  let main_v1 : FVec F S4x8192x4096 .f32 := broadcastInDim S4x8192x4096 ![] bcast_S_S4x8192x4096 main_cst
  let main_v2 : IVec S4x8192x4096 1 := cmpf .olt main_v0 main_v1
  let main_c : IVec S_ 1 := constantI S_ 1 1#1
  let main_v3 : IVec S_ 1 := (fun x v => Host.reduce IntOp.andi x v reducesTo_S4x8192x4096_S_d0_1_2 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x8192x4096 : Shape := ⟨3, ![4, 8192, 4096]⟩
abbrev S8192x4096 : Shape := ⟨2, ![8192, 4096]⟩
abbrev S4096 : Shape := ⟨1, ![4096]⟩
abbrev S1x4096 : Shape := ⟨2, ![1, 4096]⟩
abbrev S4x256x4096 : Shape := ⟨3, ![4, 256, 4096]⟩
abbrev S256x4096 : Shape := ⟨2, ![256, 4096]⟩
abbrev S1x256x4096 : Shape := ⟨3, ![1, 256, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x8192x4096, .f32⟩
  | .hbm, ⟨1, _⟩ => ⟨S8192x4096, .f32⟩
  | .hbm, ⟨2, _⟩ => ⟨S4096, .f32⟩
  | .hbm, ⟨3, _⟩ => ⟨S1x4096, .f32⟩
  | .hbm, ⟨4, _⟩ => ⟨S8192x4096, .f32⟩
  | .hbm, ⟨5, _⟩ => ⟨S8192x4096, .f32⟩
  | .local _ .vmem, ⟨0, _⟩ => ⟨S4x256x4096, .f32⟩
  | .local _ .vmem, ⟨1, _⟩ => ⟨S4x256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | _, _ => ⟨S4x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S4x256x4096_S1x256x4096_0_0_0 : ∀ a, (![0, 0, 0] : Fin 3 → Nat) a + S1x256x4096.size a ≤ S4x256x4096.size a
  h_S1x256x4096 : 0 < S1x256x4096.numel
  shapeCasts_S1x256x4096_S256x4096 : S1x256x4096.ShapeCasts S256x4096
  inb_S4x256x4096_S1x256x4096_1_0_0 : ∀ a, (![1, 0, 0] : Fin 3 → Nat) a + S1x256x4096.size a ≤ S4x256x4096.size a
  inb_S4x256x4096_S1x256x4096_2_0_0 : ∀ a, (![2, 0, 0] : Fin 3 → Nat) a + S1x256x4096.size a ≤ S4x256x4096.size a
  inb_S4x256x4096_S1x256x4096_3_0_0 : ∀ a, (![3, 0, 0] : Fin 3 → Nat) a + S1x256x4096.size a ≤ S4x256x4096.size a
  reduces_S256x4096_S256 : S256x4096.Reduces [1] S256
  shapeCasts_S256_S256x1 : S256.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x4096.size a ≤ S4x8192x4096.size a
  hwx0_0 : ∀ i : grid0.Coords, EltTy.bits .f32 = 32 ∨ (Rect.block (s := S4x8192x4096) S4x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)

variable [Facts₀]

abbrev win0_0 : Pipeline.Window sig grid0 :=
  Pipeline.Window.ofSpec (Memref.whole main_arg0) S4x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S256x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x4096 : Shape := ⟨3, ![4, 8192, 4096]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S8192x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S4x8192x4096_S8192x4096_d0 : S4x8192x4096.ReducesTo [0] S8192x4096
  h_S_ : 0 < S_.numel
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)

variable [Facts₀]

class Facts : Prop extends Facts₀ where

variable [Facts]
-- ==== Proof.RowNorm.lean ====
/-
  One token's row of the fused layer, on the extended reals.

  A token's new residual is its residual plus the four ranks' contributions; the normalised row is that new residual
  times the reciprocal square root of (the mean of its squares plus a small constant), times a per-column gain.
  Both programs compute exactly these two functions of a row; they differ only in how the five summands of the new
  residual are bracketed (one program adds the ranks onto the residual one after the other, the other sums the ranks
  from zero and adds the residual last). Addition of extended reals is commutative and associative, so the two
  bracketings agree with no finiteness assumption (`rowRes_eq_sum`).
-/
import Idealize.ShloMosaic.PureOps.Ideal
import Idealize.ShloMosaic.PureOps.Ideal.Laws
import Idealize.ShloMosaic.Lib.ValueIdx

noncomputable section

namespace Cert.RowNorm

open Idealize.ShloMosaic Idealize.ShloMosaic.ValueIdx

/-- A token's new residual at column `k`: the residual, then ranks 0, 1, 2, 3 added on in that order. -/
def rowRes {H : Nat} (x : Fin 4 → Fin H → EReal) (res : Fin H → EReal) (k : Fin H) : EReal :=
  res k + x 0 k + x 1 k + x 2 k + x 3 k

/-- The other bracketing: the four ranks summed from zero, the residual added last. -/
theorem rowRes_eq_sum {H : Nat} (x : Fin 4 → Fin H → EReal) (res : Fin H → EReal) (k : Fin H) :
    (0 + ∑ w : Fin 4, x w k) + res k = rowRes x res k := by
  unfold rowRes
  rw [Fin.sum_univ_four, zero_add]
  ac_rfl

/-- Equal rows give equal new residuals. -/
theorem rowRes_congr {H : Nat} {x x' : Fin 4 → Fin H → EReal} {res res' : Fin H → EReal} {k k' : Fin H}
    (hx : ∀ w j, x w j = x' w j) (hres : ∀ j, res j = res' j) (hk : k = k') : rowRes x res k = rowRes x' res' k' := by
  subst hk
  unfold rowRes
  rw [hx 0 k, hx 1 k, hx 2 k, hx 3 k, hres k]

/-- The normalised row at column `k`: `y k · rsqrt (mean (y²) + ε) · g k`, the mean as the sum of squares divided by
    the binary value `4096`, `ε` the binary value nearest `1e-6`; both constants are the same words in both programs
    and are never evaluated. -/
def rowNorm {H : Nat} (y g : Fin H → EReal) (k : Fin H) : EReal :=
  y k * Ideal.rsqrt (Ideal.div (∑ j : Fin H, y j * y j) (Ideal.ofBits .f32 0x45800000#32) + Ideal.ofBits .f32 0x358637BD#32) * g k

/-- Equal rows and equal gains give equal normalised rows. -/
theorem rowNorm_congr {H : Nat} {y y' g g' : Fin H → EReal} {k k' : Fin H}
    (hy : ∀ j, y j = y' j) (hg : ∀ j, g j = g' j) (hk : k = k') : rowNorm y g k = rowNorm y' g' k' := by
  subst hk
  have ey : y = y' := funext hy
  have eg : g = g' := funext hg
  rw [ey, eg]

/-- THE NEW RESIDUAL of every token: entry `i` is token `i 0`'s new residual at column `i 1`, from the ranks' array
    `X` ([4, T, H]) and the residual array `R` ([T, H]). -/
def resArr {T H : Nat} (X : (⟨3, ![4, T, H]⟩ : Shape).Idx → EReal) (R : (⟨2, ![T, H]⟩ : Shape).Idx → EReal) :
    (⟨2, ![T, H]⟩ : Shape).Idx → EReal :=
  fun i => rowRes (fun w j => X (ix3 w (i 0) j)) (fun j => R (ix2 (i 0) j)) (i 1)

/-- THE NORMALISED OUTPUT: entry `i` is token `i 0`'s normalised new residual at column `i 1`, with gain `g`. -/
def normArr {T H : Nat} (X : (⟨3, ![4, T, H]⟩ : Shape).Idx → EReal) (R : (⟨2, ![T, H]⟩ : Shape).Idx → EReal)
    (g : Fin H → EReal) : (⟨2, ![T, H]⟩ : Shape).Idx → EReal :=
  fun i => rowNorm (rowRes (fun w j => X (ix3 w (i 0) j)) (fun j => R (ix2 (i 0) j))) g (i 1)

end Cert.RowNorm

end
-- ==== Proof.RefValue.lean ====
/-
  The reference's two results, read entry by entry.

  Entry (r, k) of the reference's new residual is the row function `rowRes` of token r's rows of the three arguments,
  and entry (r, k) of its normalised output is `rowNorm` of that row and of the gain vector: the reference sums the
  ranks over the leading axis from zero and adds the residual last (`rowRes_eq_sum` is the regrouping), takes the
  row's sum of squares from zero, divides by 4096, adds ε, takes the reciprocal square root, and multiplies the new
  residual by it and then by the gain broadcast along the rows.
-/
import proofs.«134909_j17695265259656_2_alg».proof.Proof.Gen.ReferenceIdeal.Read
import proofs.«134909_j17695265259656_2_alg».proof.Proof.RowNorm

noncomputable section

namespace Cert.ReferenceIdeal.RefValue

open Cert.ReferenceIdeal Cert.ReferenceIdeal.Read Idealize.ShloMosaic Idealize.ShloMosaic.ValueIdx Cert.RowNorm

/-- Token `r`'s row of the reference's new residual. -/
theorem res_at (x0 : (⟨S4x8192x4096, .f32⟩ : BufTy).Contents (Elt Ideal)) (x1 : (⟨S8192x4096, .f32⟩ : BufTy).Contents (Elt Ideal))
    (r : Fin 8192) (k : Fin 4096) :
    val_main_v1 (F := Ideal) x0 x1 (ix2 r k) = rowRes (fun w j => x0 (ix3 w r j)) (fun j => x1 (ix2 r j)) k := by
  have hidx : ∀ w : Fin 4, idx_main_v0 (ix2 r k) w = ix3 w r k := fun w =>
    funext fun a => Fin.ext (by match a with | ⟨0, _⟩ => rfl | ⟨1, _⟩ => rfl | ⟨2, _⟩ => rfl)
  rw [val_main_v1_apply, val_main_v0_apply, val_main_cst_apply]
  simp only [hidx, Ideal.ofBits_def, Ideal.ofBits_zero_f32, Ideal.addf_def]
  exact rowRes_eq_sum (fun w j => x0 (ix3 w r j)) (fun j => x1 (ix2 r j)) k

/-- Entry (r, k) of the reference's normalised output. -/
theorem normed_at (x0 : (⟨S4x8192x4096, .f32⟩ : BufTy).Contents (Elt Ideal)) (x1 : (⟨S8192x4096, .f32⟩ : BufTy).Contents (Elt Ideal))
    (x2 : (⟨S4096, .f32⟩ : BufTy).Contents (Elt Ideal)) (r : Fin 8192) (k : Fin 4096) :
    val_main_v14 (F := Ideal) x0 x1 x2 (ix2 r k)
      = rowNorm (rowRes (fun w j => x0 (ix3 w r j)) (fun j => x1 (ix2 r j))) (fun j => x2 (ix1 j)) k := by
  have h1 : idx_main_v4 (idx_main_v10 (ix2 r k)) = ix1 r :=
    funext fun a => Fin.ext (by match a with | ⟨0, _⟩ => rfl)
  have h2 : ∀ j : Fin 4096, idx_main_v3 (ix1 r) j = ix2 r j := fun j =>
    funext fun a => Fin.ext (by match a with | ⟨0, _⟩ => rfl | ⟨1, _⟩ => rfl)
  have h3 : idx_main_v12 (idx_main_v13 (ix2 r k)) = ix1 k :=
    funext fun a => Fin.ext (by match a with | ⟨0, _⟩ => rfl)
  rw [val_main_v14_apply, val_main_v11_apply, val_main_v13_apply, val_main_v12_apply, val_main_v10_apply, val_main_v9_apply,
    val_main_v8_apply, val_main_v6_apply, val_main_v7_apply, val_main_cst_2_apply, val_main_v4_apply, val_main_v5_apply,
    val_main_cst_1_apply, val_main_v3_apply, val_main_cst_0_apply, h1, h3, res_at]
  simp only [h2, val_main_v2_apply, res_at, Ideal.ofBits_def, Ideal.ofBits_zero_f32, Ideal.addf_def, Ideal.mulf_def,
    Ideal.hostDivf_def, Ideal.hostUnary_rsqrt_def, zero_add]
  rfl

/-- The reference's new residual as one function of the arguments. -/
theorem res_eq (x0 : (⟨S4x8192x4096, .f32⟩ : BufTy).Contents (Elt Ideal)) (x1 : (⟨S8192x4096, .f32⟩ : BufTy).Contents (Elt Ideal)) :
    val_main_v1 (F := Ideal) x0 x1 = resArr x0 x1 := by
  funext i
  obtain ⟨r, k, rfl⟩ : ∃ (r : Fin 8192) (k : Fin 4096), i = ix2 r k := ⟨i 0, i 1, eq_ix2 i⟩
  exact res_at x0 x1 r k

/-- The reference's normalised output as one function of the arguments. -/
theorem normed_eq (x0 : (⟨S4x8192x4096, .f32⟩ : BufTy).Contents (Elt Ideal)) (x1 : (⟨S8192x4096, .f32⟩ : BufTy).Contents (Elt Ideal))
    (x2 : (⟨S4096, .f32⟩ : BufTy).Contents (Elt Ideal)) :
    val_main_v14 (F := Ideal) x0 x1 x2 = normArr x0 x1 (fun j => x2 (ix1 j)) := by
  funext i
  obtain ⟨r, k, rfl⟩ : ∃ (r : Fin 8192) (k : Fin 4096), i = ix2 r k := ⟨i 0, i 1, eq_ix2 i⟩
  exact normed_at x0 x1 x2 r k

end Cert.ReferenceIdeal.RefValue

end
-- ==== Proof.BlockValue.lean ====
/-
  What the kernel body leaves in its two output blocks, read entry by entry.

  A block is 256 consecutive tokens. The body adds the four ranks' slabs onto the residual block in turn, stores that
  as the new-residual block, and stores as the normalised block the new residual times the reciprocal square root of
  (its row's sum of squares / 4096 + ε) broadcast along the row, times the gain row broadcast down the rows. So entry
  (p, q) of each stored block is the row function (`rowRes`, `rowNorm`) of row p of the loaded blocks: the lane
  reduction over the 4096 columns is a finite sum on the extended reals, and the slab of rank w is row-major the
  same rows as the residual block.
-/
import proofs.«134909_j17695265259656_2_alg».proof.Proof.Gen.KernelIdeal.Value
import proofs.«134909_j17695265259656_2_alg».proof.Proof.RowNorm
import Idealize.ShloMosaic.PureOps.Ideal.Laws
import Idealize.ShloMosaic.Lib.ValueIdx

noncomputable section

namespace Cert.KernelIdeal.Block

open Cert.KernelIdeal Cert.KernelIdeal.Gen Cert.KernelIdeal.Value Idealize.ShloMosaic Idealize.ShloMosaic.ValueIdx Cert.RowNorm

/-- The lane reduction over the columns of a [256, 4096] value, at row `p`, is the sum of the row's entries. -/
theorem rowSum (src : FVec Ideal S256x4096 .f32) (hφ : FKind.Formats .f32)
    (hacc : (0x00000000#32 : BitVec 32) = FKind.add.neutral .f32 hφ) (p : Fin 256) :
    multiReduction .add [1] S256 src 0x00000000#32 reduces_S256x4096_S256 hφ hacc (ix1 p) = ∑ k : Fin 4096, src (ix2 p k) := by
  refine (Ideal.multiReduction_add_single src 0x00000000#32 reduces_S256x4096_S256 hφ hacc (ix1 p)).trans ?_
  exact Finset.sum_congr rfl fun k _ => congrArg src
    (funext fun a => Fin.ext (by match a with | ⟨0, _⟩ => rfl | ⟨1, _⟩ => rfl))

/-- The whole-block rectangle sends an index to itself. -/
theorem whole_idx (p : Fin 256) (q : Fin 4096) : r0_0.idx (ix2 p q) = ix2 p q :=
  funext fun a => Fin.ext (by
    match a with
    | ⟨0, _⟩ => show 0 + 1 * p.val = p.val; omega
    | ⟨1, _⟩ => show 0 + 1 * q.val = q.val; omega)

/-- Entry (p, q) of the accumulated block: the residual block's entry and the four slabs' entries added in turn. -/
theorem pay1_at (P0 : Vec Ideal S256x4096 .f32) (P1 P2 P3 P4 : Vec Ideal S1x256x4096 .f32) (p : Fin 256) (q : Fin 4096) :
    k0_pay1 P0 P1 P2 P3 P4 (ix2 p q)
      = P0 (ix2 p q) + P1 (ix3 0 p q) + P2 (ix3 0 p q) + P3 (ix3 0 p q) + P4 (ix3 0 p q) := by
  refine (piece4_0 P0 P1 P2 P3 P4 (ix2 p q)).trans ?_
  rw [whole_idx]
  have i0 : ix4_0 (ix2 p q) = ix2 p q :=
    funext fun a => Fin.ext (by match a with | ⟨0, _⟩ => rfl | ⟨1, _⟩ => rfl)
  have i1 : ix4_1 (ix2 p q) = ix3 0 p q :=
    funext fun a => Fin.ext (by match a with | ⟨0, _⟩ => rfl | ⟨1, _⟩ => rfl | ⟨2, _⟩ => rfl)
  show P0 (ix4_0 (ix2 p q)) + P1 (ix4_1 (ix2 p q)) + P2 (ix4_1 (ix2 p q)) + P3 (ix4_1 (ix2 p q)) + P4 (ix4_1 (ix2 p q)) = _
  rw [i0, i1]

/-- Entry (p, q) of the normalised block, over the accumulated block's row p. -/
theorem pay2_at (P0 : Vec Ideal S256x4096 .f32) (P1 P2 P3 P4 : Vec Ideal S1x256x4096 .f32) (P5 : Vec Ideal S1x4096 .f32)
    (p : Fin 256) (q : Fin 4096) :
    k0_pay2 P0 P1 P2 P3 P4 P5 (ix2 p q)
      = rowNorm (fun j => k0_pay1 P0 P1 P2 P3 P4 (ix2 p j)) (fun j => P5 (ix2 0 j)) q := by
  refine (piece3_0 P0 P1 P2 P3 P4 P5 (ix2 p q)).trans ?_
  rw [whole_idx]
  have i5 : ix3_5 (ix2 p q) = ix1 p := funext fun a => Fin.ext (by match a with | ⟨0, _⟩ => rfl)
  have i6 : ix3_6 (ix2 p q) = ix2 0 q :=
    funext fun a => Fin.ext (by match a with | ⟨0, _⟩ => rfl | ⟨1, _⟩ => rfl)
  have hrow : E4 P0 P1 P2 P3 P4 (ix2 p q) = k0_pay1 P0 P1 P2 P3 P4 (ix2 p q) := by
    refine ((piece4_0 P0 P1 P2 P3 P4 (ix2 p q)).trans ?_).symm
    rw [whole_idx]
  show E4 P0 P1 P2 P3 P4 (ix2 p q)
      * Ideal.rsqrt (Ideal.div (multiReduction .add [1] S256 (mulf (k0_pay1 P0 P1 P2 P3 P4) (k0_pay1 P0 P1 P2 P3 P4)) 0x00000000#32
          reduces_S256x4096_S256 (.inl rfl) rfl (ix3_5 (ix2 p q))) (Ideal.ofBits .f32 0x45800000#32) + Ideal.ofBits .f32 0x358637BD#32)
      * P5 (ix3_6 (ix2 p q)) = _
  have hs : multiReduction .add [1] S256 (mulf (k0_pay1 P0 P1 P2 P3 P4) (k0_pay1 P0 P1 P2 P3 P4)) 0x00000000#32
      reduces_S256x4096_S256 (.inl rfl) rfl (ix1 p)
        = ∑ j : Fin 4096, k0_pay1 P0 P1 P2 P3 P4 (ix2 p j) * k0_pay1 P0 P1 P2 P3 P4 (ix2 p j) :=
    rowSum (mulf (k0_pay1 P0 P1 P2 P3 P4) (k0_pay1 P0 P1 P2 P3 P4)) (.inl rfl) rfl p
  rw [i5, i6, hrow, hs]
  rfl

theorem zero_off : (![0, 0] : Fin 2 → Nat) = fun _ => 0 := funext fun a => by fin_cases a <;> rfl

/-- The slab of rank `w` inside the [4, 256, 4096] input block starts at leading coordinate `w`. -/
theorem slab_idx (p : Fin 256) (q : Fin 4096) :
    r0_1.idx (ix3 0 p q) = ix3 0 p q ∧ r0_2.idx (ix3 0 p q) = ix3 1 p q
      ∧ r0_3.idx (ix3 0 p q) = ix3 2 p q ∧ r0_4.idx (ix3 0 p q) = ix3 3 p q := by
  refine ⟨?_, ?_, ?_, ?_⟩ <;> refine funext fun a => Fin.ext ?_
  · match a with
    | ⟨0, _⟩ => rfl
    | ⟨1, _⟩ => show 0 + 1 * p.val = p.val; omega
    | ⟨2, _⟩ => show 0 + 1 * q.val = q.val; omega
  · match a with
    | ⟨0, _⟩ => rfl
    | ⟨1, _⟩ => show 0 + 1 * p.val = p.val; omega
    | ⟨2, _⟩ => show 0 + 1 * q.val = q.val; omega
  · match a with
    | ⟨0, _⟩ => rfl
    | ⟨1, _⟩ => show 0 + 1 * p.val = p.val; omega
    | ⟨2, _⟩ => show 0 + 1 * q.val = q.val; omega
  · match a with
    | ⟨0, _⟩ => rfl
    | ⟨1, _⟩ => show 0 + 1 * p.val = p.val; omega
    | ⟨2, _⟩ => show 0 + 1 * q.val = q.val; omega

/-- Entry (p, q) of the accumulated block over the input blocks: row p's new residual. -/
theorem acc_at (x0 : Vec Ideal S4x256x4096 .f32) (x1 : Vec Ideal S256x4096 .f32) (p : Fin 256) (q : Fin 4096) :
    k0_pay1 x1 (View.ld x0 r0_1) (View.ld x0 r0_2) (View.ld x0 r0_3) (View.ld x0 r0_4) (ix2 p q)
      = rowRes (fun w j => x0 (ix3 w p j)) (fun j => x1 (ix2 p j)) q := by
  rw [pay1_at]
  obtain ⟨s1, s2, s3, s4⟩ := slab_idx p q
  show x1 (ix2 p q) + x0 (r0_1.idx (ix3 0 p q)) + x0 (r0_2.idx (ix3 0 p q)) + x0 (r0_3.idx (ix3 0 p q)) + x0 (r0_4.idx (ix3 0 p q))
      = x1 (ix2 p q) + x0 (ix3 0 p q) + x0 (ix3 1 p q) + x0 (ix3 2 p q) + x0 (ix3 3 p q)
  rw [s1, s2, s3, s4]

/-- WHAT THE BODY LEAVES in the new-residual block: entry `y` is row `y 0`'s new residual at column `y 1`. -/
theorem out4_at (x0 : Vec Ideal S4x256x4096 .f32) (x1 : Vec Ideal S256x4096 .f32) (x2 : Vec Ideal S1x4096 .f32) (y : S256x4096.Idx) :
    out0_4 x0 x1 x2 y = rowRes (fun w j => x0 (ix3 w (y 0) j)) (fun j => x1 (ix2 (y 0) j)) (y 1) := by
  obtain ⟨p, q, rfl⟩ : ∃ (p : Fin 256) (q : Fin 4096), y = ix2 p q := ⟨y 0, y 1, eq_ix2 y⟩
  unfold out0_4
  rw [View.canon_unit_zero zero_off, View.ld_unit_zero (S := S256x4096) zero_off]
  exact acc_at x0 x1 p q

/-- WHAT THE BODY LEAVES in the normalised block: entry `y` is row `y 0`'s normalised new residual at column `y 1`,
    the gain read from the one-row gain block. -/
theorem out3_at (x0 : Vec Ideal S4x256x4096 .f32) (x1 : Vec Ideal S256x4096 .f32) (x2 : Vec Ideal S1x4096 .f32) (y : S256x4096.Idx) :
    out0_3 x0 x1 x2 y
      = rowNorm (rowRes (fun w j => x0 (ix3 w (y 0) j)) (fun j => x1 (ix2 (y 0) j))) (fun j => x2 (ix2 0 j)) (y 1) := by
  obtain ⟨p, q, rfl⟩ : ∃ (p : Fin 256) (q : Fin 4096), y = ix2 p q := ⟨y 0, y 1, eq_ix2 y⟩
  unfold out0_3
  rw [View.canon_unit_zero zero_off, View.ld_unit_zero (S := S256x4096) zero_off, View.ld_unit_zero (S := S1x4096) zero_off, pay2_at]
  exact rowNorm_congr (fun j => acc_at x0 x1 p j) (fun _ => rfl) rfl

end Cert.KernelIdeal.Block

end
-- ==== Proof.KernelValue.lean ====
/-
  The kernel's two result arrays after the run, as whole-array functions of the arguments.

  The grid has 32 points; point t works on tokens 256·t … 256·t + 255: it fetches the four ranks' rows of those tokens
  (block (0, t, 0) of the [4, 8192, 4096] array), the residual's rows (block (t, 0)), the one gain row (block (0, 0) of
  the [1, 4096] reshape of the gain vector, made on the host before the launch), and writes back block (t, 0) of each
  result. Each written block is, entry by entry, the row function of its token's rows (the block lemmas), a token's
  rows inside a block are that token's rows of the arrays (`ranks_at`, `resid_at`, `gain_at`), and the 32 blocks cover
  the 8192 tokens (token r is in block r / 256). Hence each result array is `normArr` / `resArr` of the arguments.
-/
import proofs.«134909_j17695265259656_2_alg».proof.Proof.BlockValue
import Idealize.ShloMosaic.Lib.Pipeline.Value
import Idealize.ShloMosaic.Lib.StableHlo.Run

noncomputable section

namespace Cert.KernelIdeal.Whole

open Cert.KernelIdeal Cert.KernelIdeal.Gen Cert.KernelIdeal.Value Cert.KernelIdeal.Block
open Idealize.ShloMosaic Idealize.ShloMosaic.TcCoe Idealize.SL.Sem Idealize.ShloMosaic.ValueIdx Idealize.ShloMosaic.StableHlo Cert.RowNorm
open Idealize.ShloMosaic.Pipeline (Dat)

variable (m : (ℓ : Loc nD τ sig) → Buf (Elt Ideal) ℓ) (ρ : Dev nD → PrngReg)

/-- The printed index maps at every grid point: the token axis's block index is the point, every other one is 0. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of the ranks' block at point `t` is token `256·t + p`'s rows of the ranks' array. -/
theorem ranks_at (c : Dev nD) (t : Fin cfg0.N) (w : Fin 4) (p : Fin 256) (k : Fin 4096) (r : Fin 8192)
    (hr : r.val = 256 * t.val + p.val) :
    (iblk m c 0 t : Vec Ideal S4x256x4096 .f32) (ix3 w p k) = (V m c main_arg0 : S4x8192x4096.Idx → EReal) (ix3 w r k) := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 4 + 1 * w.val = w.val; rw [e0]; omega
  | ⟨1, _⟩ => show win0_0.index t (1 : Fin 3) * 256 + 1 * p.val = r.val; rw [e1, hr]; omega
  | ⟨2, _⟩ => show win0_0.index t (2 : Fin 3) * 4096 + 1 * k.val = k.val; rw [e2]; omega

/-- Row `p` of the residual's block at point `t` is token `256·t + p`'s row of the residual array. -/
theorem resid_at (c : Dev nD) (t : Fin cfg0.N) (p : Fin 256) (k : Fin 4096) (r : Fin 8192)
    (hr : r.val = 256 * t.val + p.val) :
    (iblk m c 1 t : Vec Ideal S256x4096 .f32) (ix2 p k) = (V m c main_arg1 : S8192x4096.Idx → EReal) (ix2 r k) := by
  obtain ⟨-, -, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 256 + 1 * p.val = r.val; rw [e0, hr]; omega
  | ⟨1, _⟩ => show win0_1.index t (1 : Fin 2) * 4096 + 1 * k.val = k.val; rw [e1]; omega

/-- The gain row, as the host left it before the launch: the gain vector laid out as one row. -/
theorem gain_row (c : Dev nD) :
    (V m c main_v0 : S1x4096.Idx → EReal) = shapeCast S1x4096 (m ((c : Thread nD τ).loc main_arg2)) shapeCasts_S4096_S1x4096 := by
  dsimp only [Gen.V, Gen.hostOps0]
  after_results
  rfl

/-- The gain block at every point is the gain vector. -/
theorem gain_at (c : Dev nD) (t : Fin cfg0.N) (k : Fin 4096) :
    (iblk m c 2 t : Vec Ideal S1x4096 .f32) (ix2 0 k) = (m ((c : Thread nD τ).loc main_arg2) : S4096.Idx → EReal) (ix1 k) := by
  obtain ⟨-, -, -, -, -, e0, e1, -⟩ := idx_facts t
  unfold iblk
  rw [View.read_apply]
  show V m c main_v0 _ = _
  rw [gain_row]
  refine (shapeCast_apply _ _ _ (ix1 k) ?_).trans rfl
  rw [Shape.rowMajor_val_one, Shape.rowMajor_val_two]
  show k.val = (win0_2.index t (0 : Fin 2) * 1 + 1 * 0) * 4096 + (win0_2.index t (1 : Fin 2) * 4096 + 1 * k.val)
  rw [e0, e1]; omega

/-- The gain as a function of the column. -/
abbrev gain (c : Dev nD) : Fin 4096 → EReal := fun k => (m ((c : Thread nD τ).loc main_arg2) : S4096.Idx → EReal) (ix1 k)

/-- WHAT POINT `t` WRITES BACK to the normalised output is block `t` of `normArr` of the arrays as the region finds them. -/
theorem flushed3_eq (c : Dev nD) (t : Fin cfg0.N) :
    (dats m 0 c).flushed 3 t
      = ((cfg0.win 3).blk t).view.read (Elt Ideal) (normArr (V m c main_arg0) (V m c main_arg1) (gain m c)) := by
  rw [Value.flushed3]
  funext j
  show out0_3 (iblk m c 0 t) (iblk m c 1 t) (iblk m c 2 t) j
      = normArr (V m c main_arg0) (V m c main_arg1) (gain m c) (((cfg0.win 3).blk t).view.emb j)
  refine (out3_at (iblk m c 0 t) (iblk m c 1 t) (iblk m c 2 t) j).trans ?_
  obtain ⟨-, -, -, -, -, -, -, e0, e1, -⟩ := idx_facts t
  have hj0 : (j 0).val < 256 := (j 0).isLt
  have hj1 : (j 1).val < 4096 := (j 1).isLt
  have er : ((((cfg0.win 3).blk t).view.emb j) 0).val = 256 * t.val + (j 0).val := by
    show win0_3.index t (0 : Fin 2) * 256 + 1 * (j 0).val = _; rw [e0]; omega
  have ek : (j 1 : Fin 4096) = ((((cfg0.win 3).blk t).view.emb j) 1 : Fin 4096) := Fin.ext (by
    show (j 1).val = win0_3.index t (1 : Fin 2) * 4096 + 1 * (j 1).val; rw [e1]; omega)
  unfold normArr
  exact rowNorm_congr
    (fun k => rowRes_congr (fun w k' => ranks_at m c t w (j 0) k' _ er) (fun k' => resid_at m c t (j 0) k' _ er) rfl)
    (fun k => gain_at m c t k) ek

/-- WHAT POINT `t` WRITES BACK to the new residual is block `t` of `resArr` of the arrays as the region finds them. -/
theorem flushed4_eq (c : Dev nD) (t : Fin cfg0.N) :
    (dats m 0 c).flushed 4 t
      = ((cfg0.win 4).blk t).view.read (Elt Ideal) (resArr (V m c main_arg0) (V m c main_arg1)) := by
  rw [Value.flushed4]
  funext j
  show out0_4 (iblk m c 0 t) (iblk m c 1 t) (iblk m c 2 t) j
      = resArr (V m c main_arg0) (V m c main_arg1) (((cfg0.win 4).blk t).view.emb j)
  refine (out4_at (iblk m c 0 t) (iblk m c 1 t) (iblk m c 2 t) j).trans ?_
  obtain ⟨-, -, -, -, -, -, -, -, -, e0, e1⟩ := idx_facts t
  have hj0 : (j 0).val < 256 := (j 0).isLt
  have hj1 : (j 1).val < 4096 := (j 1).isLt
  have er : ((((cfg0.win 4).blk t).view.emb j) 0).val = 256 * t.val + (j 0).val := by
    show win0_4.index t (0 : Fin 2) * 256 + 1 * (j 0).val = _; rw [e0]; omega
  have ek : (j 1 : Fin 4096) = ((((cfg0.win 4).blk t).view.emb j) 1 : Fin 4096) := Fin.ext (by
    show (j 1).val = win0_4.index t (1 : Fin 2) * 4096 + 1 * (j 1).val; rw [e1]; omega)
  unfold resArr
  exact rowRes_congr (fun w k' => ranks_at m c t w (j 0) k' _ er) (fun k' => resid_at m c t (j 0) k' _ er) ek

/-- An index of a result array is in point `t`'s block iff each coordinate is in the block's range on its axis. -/
theorem mem_blk3 (t : Fin cfg0.N) (i : S8192x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v1_0).slice (win0_3.rect t)).set ↔ _
  rw [View.set_slice_whole, Rect.mem_set_unit]
  exact Iff.rfl

theorem mem_blk4 (t : Fin cfg0.N) (i : S8192x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v1_1).slice (win0_4.rect t)).set ↔ _
  rw [View.set_slice_whole, Rect.mem_set_unit]
  exact Iff.rfl

/-- Token `r` lies in the block of point `r / 256`. -/
theorem cover3 (i : S8192x4096.Idx) : ∃ t : Fin cfg0.N, (cfg0.win 3).flush t = true ∧ i ∈ ((cfg0.win 3).blk t).view.set := by
  have hN : cfg0.N = 32 := N_0
  have hi0 : (i 0).val < 8192 := (i 0).isLt
  have hi1 : (i 1).val < 4096 := (i 1).isLt
  let t : Fin cfg0.N := ⟨(i 0).val / 256, by rw [hN]; omega⟩
  obtain ⟨-, -, -, -, -, -, -, e0, e1, -⟩ := idx_facts t
  have ht : t.val = (i 0).val / 256 := rfl
  refine ⟨t, flush0_3 t, ?_⟩
  rw [mem_blk3]
  intro a
  match a with
  | ⟨0, _⟩ => show win0_3.index t (0 : Fin 2) * 256 ≤ (i 0).val ∧ (i 0).val < win0_3.index t (0 : Fin 2) * 256 + 256; rw [e0, ht]; omega
  | ⟨1, _⟩ => show win0_3.index t (1 : Fin 2) * 4096 ≤ (i 1).val ∧ (i 1).val < win0_3.index t (1 : Fin 2) * 4096 + 4096; rw [e1]; omega

theorem cover4 (i : S8192x4096.Idx) : ∃ t : Fin cfg0.N, (cfg0.win 4).flush t = true ∧ i ∈ ((cfg0.win 4).blk t).view.set := by
  have hN : cfg0.N = 32 := N_0
  have hi0 : (i 0).val < 8192 := (i 0).isLt
  have hi1 : (i 1).val < 4096 := (i 1).isLt
  let t : Fin cfg0.N := ⟨(i 0).val / 256, by rw [hN]; omega⟩
  obtain ⟨-, -, -, -, -, -, -, -, -, e0, e1⟩ := idx_facts t
  have ht : t.val = (i 0).val / 256 := rfl
  refine ⟨t, flush0_4 t, ?_⟩
  rw [mem_blk4]
  intro a
  match a with
  | ⟨0, _⟩ => show win0_4.index t (0 : Fin 2) * 256 ≤ (i 0).val ∧ (i 0).val < win0_4.index t (0 : Fin 2) * 256 + 256; rw [e0, ht]; omega
  | ⟨1, _⟩ => show win0_4.index t (1 : Fin 2) * 4096 ≤ (i 1).val ∧ (i 1).val < win0_4.index t (1 : Fin 2) * 4096 + 4096; rw [e1]; omega

/-- THE NORMALISED OUTPUT after the run. -/
theorem final3 (c : Dev nD) :
    (dats m 0 c).arrAt 3 cfg0.N
      = normArr (m ((c : Thread nD τ).loc main_arg0)) (m ((c : Thread nD τ).loc main_arg1)) (gain m c) := by
  rw [← V_main_arg0 m c, ← V_main_arg1 m c]
  exact (dats m 0 c).arrAt_eq_of_cover 3 _ (fun t _ => flushed3_eq m c t) cover3

/-- THE NEW RESIDUAL after the run. -/
theorem final4 (c : Dev nD) :
    (dats m 0 c).arrAt 4 cfg0.N = resArr (m ((c : Thread nD τ).loc main_arg0)) (m ((c : Thread nD τ).loc main_arg1)) := by
  rw [← V_main_arg0 m c, ← V_main_arg1 m c]
  exact (dats m 0 c).arrAt_eq_of_cover 4 _ (fun t _ => flushed4_eq m c t) cover4

/-- The kernel's run, read: both result arrays at their functions of the arguments, the arguments unchanged. -/
theorem run : θ_run defs (onTc (τ := τ) (main (F := Ideal))) ⟨m, fun _ => 0, ρ⟩ fun r => ∀ c : Dev nD,
      r.2.mem ((c : Thread nD τ).loc main_v1_0)
        = normArr (m ((c : Thread nD τ).loc main_arg0)) (m ((c : Thread nD τ).loc main_arg1)) (gain m c)
      ∧ r.2.mem ((c : Thread nD τ).loc main_v1_1)
        = resArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Whole

end
-- ==== Proof.lean ====
/-
  The certificate of the fused layer (sum over the four ranks, residual add, RMS normalisation with a gain): the kernel
  against its array-level reference, on the extended reals.

  Both programs return, for every token, the new residual `residual + Σ_w input_shared[w]` and its normalised form
  `y · rsqrt (mean (y²) + ε) · gain`. The kernel adds the ranks onto the residual one after the other, 256 tokens per grid
  point; the reference sums the ranks from zero and adds the residual last. These are two bracketings of one sum of five
  extended reals, equal because addition there is commutative and associative — no finiteness is used. Everything
  after that sum is the same chain of operations in both programs (square, row sum, the same divisor word, the same ε word,
  reciprocal square root, two products), read on the same row.

  Proof/RowNorm.lean states the two row functions and the regrouping; Proof/RefValue.lean reads the reference's results
  entry by entry as those functions; Proof/BlockValue.lean reads what the kernel body leaves in a block; Proof/KernelValue.lean
  carries the blocks to the whole result arrays. Here the five claims are assembled: the three frames (the kernels' are
  generated; the reference's is its run with the results dropped), `preserves` (nothing was rewritten by the idealisation)
  and the equality of results.
-/
import proofs.«134909_j17695265259656_2_alg».proof.Defs
import proofs.«134909_j17695265259656_2_alg».proof.Proof.Gen.Kernel
import proofs.«134909_j17695265259656_2_alg».proof.Proof.Gen.Kernel.Skeleton
import proofs.«134909_j17695265259656_2_alg».proof.Proof.Gen.Kernel.Launch
import proofs.«134909_j17695265259656_2_alg».proof.Proof.Gen.Kernel.Points
import proofs.«134909_j17695265259656_2_alg».proof.Proof.Gen.Kernel.Frame
import proofs.«134909_j17695265259656_2_alg».proof.Proof.Gen.KernelIdeal
import proofs.«134909_j17695265259656_2_alg».proof.Proof.Gen.KernelIdeal.Skeleton
import proofs.«134909_j17695265259656_2_alg».proof.Proof.Gen.KernelIdeal.Launch
import proofs.«134909_j17695265259656_2_alg».proof.Proof.Gen.KernelIdeal.Points
import proofs.«134909_j17695265259656_2_alg».proof.Proof.Gen.KernelIdeal.Frame
import proofs.«134909_j17695265259656_2_alg».proof.Proof.Gen.ReferenceIdeal
import proofs.«134909_j17695265259656_2_alg».proof.Proof.Gen.Pre_finite_inputs
import proofs.«134909_j17695265259656_2_alg».proof.Proof.Gen.KernelIdeal.Value
import proofs.«134909_j17695265259656_2_alg».proof.Proof.Gen.ReferenceIdeal.Run
import proofs.«134909_j17695265259656_2_alg».proof.Proof.Gen.ReferenceIdeal.Read
import proofs.«134909_j17695265259656_2_alg».proof.Proof.RowNorm
import proofs.«134909_j17695265259656_2_alg».proof.Proof.RefValue
import proofs.«134909_j17695265259656_2_alg».proof.Proof.KernelValue
import Idealize.ShloMosaic.Adequacy
import Idealize.ShloMosaic.Init

noncomputable section

namespace Cert.Proof

open Idealize.ShloMosaic Idealize.ShloMosaic.TcCoe Idealize.SL.Sem Cert.RowNorm

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealisation rewrote no operation. -/
theorem preserves : Cert.preserves_Kernel_KernelIdeal := trivial

/-- Both programs end with the normalised output at `normArr` and the new residual at `resArr` of the same arguments. -/
theorem algebraic : Cert.algebraic_KernelIdeal_ReferenceIdeal := by
  intro m ρ m' ρ' _ hagree
  refine ⟨fun c => normArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (Cert.KernelIdeal.Whole.gain m c),
    fun c => resArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ?_) (Cert.ReferenceIdeal.Value.run (F := Ideal) m' ρ')
  obtain ⟨a0, a1, a2⟩ := hagree c
  refine ⟨(h c).1.trans ?_, (h c).2.1.trans ?_, (h c).2.2⟩
  · rw [Cert.ReferenceIdeal.Read.val_main_v14_eq, Cert.ReferenceIdeal.RefValue.normed_eq, a0, a1, a2]
  · rw [Cert.ReferenceIdeal.Read.val_main_v1_eq, Cert.ReferenceIdeal.RefValue.res_eq, a0, a1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
